-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S16777216 : Shape := ⟨1, ![16777216]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel

variable [Facts]

def fn {F : FTy → Type} [FloatOps F] (main_arg0 : FVec F S16777216x2 .f32) (main_arg1 : FVec F S16777216x2 .f32) (main_arg2 : IVec S16777216 32) (main_arg3 : IVec S16777216 32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_v4 : FVec F S16777216x2 .f32 := Host.absf main_arg1
  let main_cst_0 : FVec F S_ .f32 := constant S_ .f32 0x7F800000#32
  let main_v5 : FVec F S16777216x2 .f32 := broadcastInDim S16777216x2 ![] bcast_S_S16777216x2 main_cst_0
  let main_v6 : IVec S16777216x2 1 := cmpf .olt main_v4 main_v5
  let main_c_1 : IVec S_ 1 := constantI S_ 1 1#1
  let main_v7 : IVec S_ 1 := (fun x v => Host.reduce IntOp.andi x v reducesTo_S16777216x2_S_d0_1 h_S_) main_v6 main_c_1
  let main_v8 : IVec S_ 1 := andi main_v3 main_v7
  main_v8
-- ==== Kernel.lean ====
abbrev S16777216x2 : Shape := ⟨2, ![16777216, 2]⟩
abbrev S16777216 : Shape := ⟨1, ![16777216]⟩
abbrev S_ : Shape := ⟨0, ![]⟩
abbrev S16777216x1 : Shape := ⟨2, ![16777216, 1]⟩
abbrev S131072x128 : Shape := ⟨2, ![131072, 128]⟩
abbrev S1x2 : Shape := ⟨2, ![1, 2]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩

abbrev nBuf : Space → Nat
  | .hbm => 25
  | .vmem => 8
  | .smem => 0
  | _ => 0

abbrev bufTy : (tb : Table) → Fin (tcTables nBuf tb) → BufTy
  | .hbm, ⟨0, _⟩ => ⟨S16777216x2, .f32⟩
  | .hbm, ⟨1, _⟩ => ⟨S16777216x2, .f32⟩
  | .hbm, ⟨2, _⟩ => ⟨S16777216, .i32⟩
  | .hbm, ⟨3, _⟩ => ⟨S16777216, .i32⟩
  | .hbm, ⟨4, _⟩ => ⟨S_, .i32⟩
  | .hbm, ⟨5, _⟩ => ⟨S_, .i32⟩
  | .hbm, ⟨6, _⟩ => ⟨S16777216, .i32⟩
  | .hbm, ⟨7, _⟩ => ⟨S_, .i32⟩
  | .hbm, ⟨8, _⟩ => ⟨S_, .i32⟩
  | .hbm, ⟨9, _⟩ => ⟨S16777216, .i32⟩
  | .hbm, ⟨10, _⟩ => ⟨S16777216, .i1⟩
  | .hbm, ⟨11, _⟩ => ⟨S16777216, .f32⟩
  | .hbm, ⟨12, _⟩ => ⟨S16777216x1, .f32⟩
  | .hbm, ⟨13, _⟩ => ⟨S16777216, .f32⟩
  | .hbm, ⟨14, _⟩ => ⟨S131072x128, .f32⟩
  | .hbm, ⟨15, _⟩ => ⟨S16777216x1, .f32⟩
  | .hbm, ⟨16, _⟩ => ⟨S16777216, .f32⟩
  | .hbm, ⟨17, _⟩ => ⟨S131072x128, .f32⟩
  | .hbm, ⟨18, _⟩ => ⟨S131072x128, .f32⟩
  | .hbm, ⟨19, _⟩ => ⟨S1x2, .f32⟩
  | .hbm, ⟨20, _⟩ => ⟨S1x1, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x2, .f32⟩
  | .local _ .vmem, ⟨7, _⟩ => ⟨S1x2, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_call1_call0_c : Ref sig .tc := ⟨.hbm, 7, rfl⟩
abbrev main_call1_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v30 : BitVec 1 := Scalar.cmpi .eq arg0 c31_i32
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  slices_S16777216x2_S16777216x1_0_0 : S16777216x2.Slices ![0, 0] S16777216x1
  shapeCasts_S16777216x1_S16777216 : S16777216x1.ShapeCasts S16777216
  shapeCasts_S16777216_S131072x128 : S16777216.ShapeCasts S131072x128
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  concatenates_S1x1_S1x1_S1x2_d1 : Shape.Concatenates [S1x1, S1x1] S1x2 1
  slices_S1x2_S1x1_0_0 : S1x2.Slices ![0, 0] S1x1
  shapeCasts_S1x1_S_ : S1x1.ShapeCasts S_
  slices_S1x2_S1x1_0_1 : S1x2.Slices ![0, 1] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)

variable [Facts₀]

abbrev win0_0 : Pipeline.Window sig grid0 :=
  Pipeline.Window.ofSpec (Memref.whole main_v6) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x2.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16777216x2 : Shape := ⟨2, ![16777216, 2]⟩
abbrev S16777216 : Shape := ⟨1, ![16777216]⟩
abbrev S_ : Shape := ⟨0, ![]⟩
abbrev S16777216x1 : Shape := ⟨2, ![16777216, 1]⟩

abbrev nBuf : Space → Nat
  | .hbm => 28
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216x2, .f32⟩
  | .hbm, ⟨2, _⟩ => ⟨S16777216, .i32⟩
  | .hbm, ⟨3, _⟩ => ⟨S16777216, .i32⟩
  | .hbm, ⟨4, _⟩ => ⟨S_, .i32⟩
  | .hbm, ⟨5, _⟩ => ⟨S_, .i32⟩
  | .hbm, ⟨6, _⟩ => ⟨S16777216, .i32⟩
  | .hbm, ⟨7, _⟩ => ⟨S_, .i32⟩
  | .hbm, ⟨8, _⟩ => ⟨S_, .i32⟩
  | .hbm, ⟨9, _⟩ => ⟨S16777216, .i32⟩
  | .hbm, ⟨10, _⟩ => ⟨S16777216, .i1⟩
  | .hbm, ⟨11, _⟩ => ⟨S16777216, .f32⟩
  | .hbm, ⟨12, _⟩ => ⟨S16777216x1, .f32⟩
  | .hbm, ⟨13, _⟩ => ⟨S16777216, .f32⟩
  | .hbm, ⟨14, _⟩ => ⟨S16777216x1, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S_, .f32⟩
  | .hbm, ⟨20, _⟩ => ⟨S16777216, .f32⟩
  | .hbm, ⟨21, _⟩ => ⟨S16777216, .i1⟩
  | .hbm, ⟨22, _⟩ => ⟨S16777216, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_call1_call0_c : Ref sig .tc := ⟨.hbm, 7, rfl⟩
abbrev main_call1_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  slices_S16777216x2_S16777216x1_0_0 : S16777216x2.Slices ![0, 0] S16777216x1
  shapeCasts_S16777216x1_S16777216 : S16777216x1.ShapeCasts S16777216
  bcast_S_S16777216 : S_.BroadcastsInDim S16777216 (![] : Fin 0 → Fin S16777216.rank)
  reducesTo_S16777216_S_d0 : S16777216.ReducesTo [0] S_

variable [Facts₀]

class Facts : Prop extends Facts₀ where

variable [Facts]
-- ==== Proof.Pieces.lean ====
/-
  What one run of the kernel body leaves behind, as values.

  The body keeps a [1, 2] accumulator in a scratch buffer: at the grid's first point it clears it, at every point
  it loads it whole, adds the block's two counts and stores it whole, and at the last point it copies it whole into
  the output block. Every access is through the whole buffer, so what a run leaves in the accumulator (and, at the
  last point, in the output block) is the one stored value: the body's arithmetic applied to the three input
  blocks and to the accumulator as the body found it (zero at the first point).
-/
import proofs.«156592_j90409061581302_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access of a rank-two buffer. -/
theorem off00 : (![0, 0] : Fin 2 → Nat) = fun _ => 0 := by
  funext a; match a with | ⟨0, _⟩ => rfl | ⟨1, _⟩ => rfl

/-- At a middle point the accumulator ends at the body's one stored value: the block's two counts added to what
    the point before left. -/
theorem acc_mid (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x2 .f32) (harg4 : arg4.IsWhole) (arg5 : Memref sig .tc .vmem S1x2 .f32) (harg5 : arg5.IsWhole) (hc0 : ¬cond0_0 i) (hc1 : ¬cond0_1 i)
    (x0 : Vec F S4096x128 .f32) (x1 : Vec F S4096x128 .f32) (x2 : Vec F S4096x128 .f32) (xs0 : Vec F S1x2 .f32) :
    sout0_B_0 c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero off00]
  simp only [View.readAt_eq_ld, harg1.read_unread, harg2.read_unread, harg3.read_unread, harg5.read_unread,
    View.ld_unit_zero (S := S4096x128) off00, View.ld_unit_zero (S := S1x2) off00]

/-- At the first point the accumulator is first cleared, so it ends at the block's two counts added to zero. -/
theorem acc_first (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x2 .f32) (harg4 : arg4.IsWhole) (arg5 : Memref sig .tc .vmem S1x2 .f32) (harg5 : arg5.IsWhole) (hc0 : cond0_0 i) (hc1 : ¬cond0_1 i)
    (x0 : Vec F S4096x128 .f32) (x1 : Vec F S4096x128 .f32) (x2 : Vec F S4096x128 .f32) :
    sout0_A_0 c i arg1 harg1 arg2 harg2 arg3 harg3 arg4 harg4 arg5 harg5 hc0 hc1 x0 x1 x2 = k0_pay2 x0 x1 x2 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_run_names
  rw [View.canon_cons_unit_zero off00]
  simp only [View.readAt_eq_ld, harg1.read_unread, harg2.read_unread, harg3.read_unread,
    View.ld_unit_zero (S := S4096x128) off00]
  rw [View.readCov_unit_zero (S := S1x2) arg5.view off00]

/-- At the last point the accumulator ends as at a middle point, -/
theorem acc_last (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x2 .f32) (harg4 : arg4.IsWhole) (arg5 : Memref sig .tc .vmem S1x2 .f32) (harg5 : arg5.IsWhole) (hc0 : ¬cond0_0 i) (hc1 : cond0_1 i)
    (x0 : Vec F S4096x128 .f32) (x1 : Vec F S4096x128 .f32) (x2 : Vec F S4096x128 .f32) (xs0 : Vec F S1x2 .f32) :
    sout0_C_0 c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_run_names
  rw [View.canon_unit_zero off00]
  simp only [View.readAt_eq_ld, harg1.read_unread, harg2.read_unread, harg3.read_unread, harg5.read_unread,
    View.ld_unit_zero (S := S4096x128) off00, View.ld_unit_zero (S := S1x2) off00]

/-- and the output block is stored from the accumulator just written: the same value. -/
theorem out_last (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x2 .f32) (harg4 : arg4.IsWhole) (arg5 : Memref sig .tc .vmem S1x2 .f32) (harg5 : arg5.IsWhole) (hc0 : ¬cond0_0 i) (hc1 : cond0_1 i)
    (x0 : Vec F S4096x128 .f32) (x1 : Vec F S4096x128 .f32) (x2 : Vec F S4096x128 .f32) (xs0 : Vec F S1x2 .f32) :
    out0_C_3 c i arg1 harg1 arg2 harg2 arg3 harg3 arg4 harg4 arg5 harg5 hc0 hc1 x0 x1 x2 xs0 = k0_pay2 x0 x1 x2 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_run_names
  rw [View.canon_unit_zero off00]
  simp only [View.readAt_eq_ld, harg1.read_unread, harg2.read_unread, harg3.read_unread, harg5.read_unread,
    View.ld_unit_zero (S := S4096x128) off00, View.ld_unit_zero (S := S1x2) off00]
  exact View.readCov_unit_zero (S := S1x2) arg5.view off00 _ _

end Cert.KernelIdeal.Pieces

end
-- ==== Proof.Spec.lean ====
/-
  The quantity both programs compute, as one function of the argument arrays.

  Over T = 16777216 timesteps, with `u`, `e` of shape [T, 2] and two integer arrays `on`, `off` of T entries:
  the activity mask is A(t) = 1 when the running (inclusive) sum of `on` up to t exceeds that of `off`, else 0;
  a timestep is a hit when |A(t) · (e(t,0) − u(t,0))| > 1/2; and the result is

      (number of hits) / (sum of the mask),

  both counts taken as sums over all T timesteps in the extended reals, the quotient the host's division.
  The running sums, the mask and the column cut are operations both programs apply verbatim, so they are kept
  here as named functions that no proof opens.
-/
import Idealize.ShloMosaic.PureOps.Ideal
import Idealize.ShloMosaic.PureOps.Ideal.Laws
import Idealize.ShloMosaic.Lib.ValueIdx
import Idealize.ShloMosaic.Lib.Pipeline.Value

noncomputable section

namespace Cert.PitchLoss

open Idealize.ShloMosaic Idealize.ShloMosaic.ValueIdx

/-- A vector over the timesteps. -/
abbrev ST : Shape := ⟨1, ![16777216]⟩
/-- One column over the timesteps. -/
abbrev ST1 : Shape := ⟨2, ![16777216, 1]⟩
/-- The two-channel arrays `u` and `e`. -/
abbrev ST2 : Shape := ⟨2, ![16777216, 2]⟩
/-- A scalar. -/
abbrev S0 : Shape := ⟨0, ![]⟩

/-- The inclusive running sum of an integer array: a window of T entries ending at each position, padded with
    T − 1 zeros in front. -/
def runSum (x : IVec ST 32) (hb : S0.BroadcastsInDim S0 (![] : Fin 0 → Fin S0.rank))
    (hw : ST.ReduceWindows (![16777216] : Fin 1 → Nat) ![1] ![16777215] ![0] ST) (h0 : 0 < S0.numel) : IVec ST 32 :=
  Host.reduceWindow IntOp.addi ![16777216] ![1] ![16777215] ![0] x (broadcastInDim S0 ![] hb (constantI S0 32 0#32)) hw h0

/-- The activity mask: 1 where more onsets than offsets have been seen so far, else 0. -/
def mask (on off : IVec ST 32) (hb : S0.BroadcastsInDim S0 (![] : Fin 0 → Fin S0.rank))
    (hw : ST.ReduceWindows (![16777216] : Fin 1 → Nat) ![1] ![16777215] ![0] ST) (h0 : 0 < S0.numel) : FVec Ideal ST .f32 :=
  uitofp .f32 (cmpi .sgt (runSum on hb hw h0) (runSum off hb hw h0))

/-- Channel 0 of a two-channel array, as a vector over the timesteps. -/
def col (x : FVec Ideal ST2 .f32) (hs : ST2.Slices ![0, 0] ST1) (hc : ST1.ShapeCasts ST) : FVec Ideal ST .f32 :=
  shapeCast ST (extractStridedSlice ST1 ![0, 0] x hs) hc

/-- One timestep's hit indicator: 1 when |a · (e − u)| exceeds 1/2 (the f32 pattern 0x3F000000), else 0. -/
def hitOf (a e u : EReal) : EReal :=
  FloatOps.uitofp (F := Ideal) .f32
    (FloatOps.cmpf (F := Ideal) (φ := .f32) .ogt (FloatOps.absf (F := Ideal) (φ := .f32) (a * (e - u)))
      (Ideal.ofBits .f32 0x3F000000#32))

/-- The hit indicators of every timestep. -/
def hits (A E U : FVec Ideal ST .f32) : FVec Ideal ST .f32 := fun i => hitOf (A i) (E i) (U i)

/-- The sum of a vector over all the timesteps. -/
def total (x : FVec Ideal ST .f32) : EReal := ∑ t : Fin 16777216, x (ix1 t)

/-- The result: hits over mask weight. -/
def loss (A E U : FVec Ideal ST .f32) : FVec Ideal S0 .f32 :=
  Host.divf (F := Ideal) (fun _ => total (hits A E U)) (fun _ => total A)

/-- A one-bit word widened to 32 bits and read signed is the bit read unsigned: both are 0 or 1. -/
theorem sitofp_extui_bit (b : BitVec 1) :
    FloatOps.sitofp (F := Ideal) .f32 (b.setWidth 32) = FloatOps.uitofp (F := Ideal) .f32 b := by
  rcases BitVec.eq_zero_or_eq_one b with h | h <;> subst h <;>
    show (((_ : BitVec 32).toInt : ℝ) : EReal) = (((_ : BitVec 1).toNat : ℝ) : EReal) <;> norm_num

end Cert.PitchLoss

end
-- ==== Proof.LibKeepdims.lean ====
/-
  A row statistic kept as a column, and a [1, 1, a, b] block seen as a matrix.

  A kernel that works on one [a, b] tile of a [1, 1, a, b] block drops the two leading unit axes on the way in and
  puts them back on the way out; a per-row statistic kept with a trailing unit axis ([a, 1]) is spread along the
  rows to [a, b] by a broadcast; and a sum over the last axis of an [a, b] array, read at row r, is the sum of that
  row's entries.  Each is read here at explicit coordinates.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An [a, 1] column spread along the rows to [a, b], read at (p, c): the column's entry p. -/
theorem column_broadcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1, a, b] block seen as an [a, b] matrix, read at (i, j): the block's entry (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix put back as a [1, 1, a, b] block, read at (u, v, i, j): the matrix's entry (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- Over the extended reals, the sum over the last axis of an [a, b] array, read at row r, is the sum over the
    row's b entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c
  apply Fin.ext
  match c with
  | ⟨0, _⟩ => rfl
  | ⟨1, _⟩ => rfl

end Cert.Keepdims
-- ==== Proof.LibColumns.lean ====
/-
  Columns of a rank-two array, as vectors.

  A program that works on an [n, w] array column by column cuts column `k` out as an [n, 1] slice and flattens it
  to a vector of `n` entries, and sets a computed vector of `n` entries up again as an [n, 1] column before putting
  it in its place. Read at a row `r`, the first is the array's entry (r, k) and the second is the vector's entry
  `r`: the row-major position of (r, 0) among [n, 1] is `r`, the position of `r` among [n].
-/
import Idealize.ShloMosaic.Lib.Pipeline.Value
import Idealize.ShloMosaic.Lib.ValueIdx

namespace Cert.TriInv

open Idealize.ShloMosaic Idealize.ShloMosaic.ValueIdx

variable {α : Type}

/-- Column `k` of an [n, w] array, cut out as an [n, 1] slice and flattened, read at row `r`: the entry (r, k). -/
theorem column_apply (n w k : Nat) (hk : k < w) (x : (⟨2, ![n, w]⟩ : Shape).Idx → α)
    (hs : (⟨2, ![n, w]⟩ : Shape).Slices ![0, k] ⟨2, ![n, 1]⟩) (hc : (⟨2, ![n, 1]⟩ : Shape).ShapeCasts ⟨1, ![n]⟩)
    (r : Fin n) :
    shapeCast ⟨1, ![n]⟩ (extractStridedSlice ⟨2, ![n, 1]⟩ ![0, k] x hs) hc (ix1 r) = x (ix2 r ⟨k, hk⟩) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply ![0, k] x hs (ix2 r (0 : Fin 1)) (ix2 r ⟨k, hk⟩) fun a => ?_
    match a with
    | ⟨0, _⟩ => show r.val = 0 + r.val; omega
    | ⟨1, _⟩ => show k = k + 0; omega

/-- A vector of `n` entries set up as an [n, 1] column, read at (r, 0): the vector's entry `r`. -/
theorem asColumn_apply (n : Nat) (w : (⟨1, ![n]⟩ : Shape).Idx → α)
    (hc : (⟨1, ![n]⟩ : Shape).ShapeCasts ⟨2, ![n, 1]⟩) (r : Fin n) (z : Fin 1) :
    shapeCast ⟨2, ![n, 1]⟩ w hc (ix2 r z) = w (ix1 r) := by
  refine shapeCast_apply w hc (ix2 r z) (ix1 r) ?_
  rw [Shape.rowMajor_val_two, Shape.rowMajor_val_one]
  have hz : z.val < 1 := z.isLt
  show r.val = r.val * 1 + z.val
  omega

end Cert.TriInv
-- ==== Proof.Payload.lean ====
/-
  The body's stored value, read at its two entries over the extended reals.

  From three [4096, 128] blocks — u, e and the mask a — and the accumulator v as the body found it, the body stores the
  [1, 2] value whose entry (0, 0) is v(0, 0) plus the number of hits in the block and whose entry (0, 1) is v(0, 1)
  plus the block's mask weight. Each count is taken lane axis first (a row's 128 entries), the row sums stood up as
  a [4096, 1] column, then over the 4096 rows, and the two [1, 1] results are laid side by side. The hit indicator is
  computed as a one-bit comparison widened to 32 bits and read signed, which is the bit read unsigned.
-/
import proofs.«156592_j90409061581302_2_alg».proof.Proof.Gen.KernelIdeal.Skeleton
import proofs.«156592_j90409061581302_2_alg».proof.Proof.Spec
import proofs.«156592_j90409061581302_2_alg».proof.Proof.LibKeepdims
import proofs.«156592_j90409061581302_2_alg».proof.Proof.LibColumns
import Idealize.ShloMosaic.Lib.Pipeline.Value
import Idealize.ShloMosaic.PureOps.Ideal.Laws

noncomputable section

namespace Cert.KernelIdeal.Payload

open Cert.KernelIdeal Cert.KernelIdeal.Gen Cert.PitchLoss
open Idealize.ShloMosaic Idealize.ShloMosaic.ValueIdx

/-- The sum of a [4096, 128] block taken in the body's two steps — each row's 128 lanes, the row sums as a column,
    then the 4096 rows — and kept as a [1, 1] value, read at its one entry: the double sum over rows and lanes. -/
theorem blockSum (w : FVec Ideal S4096x128 .f32)
    (h1 : S4096x128.Reduces [1] S4096) (c1 : S4096.ShapeCasts S4096x1) (h2 : S4096x1.Reduces [0] S1)
    (c2 : S1.ShapeCasts S1x1) (hφ : FKind.Formats .f32) (hacc : (0x00000000#32 : BitVec 32) = FKind.add.neutral .f32 hφ) :
    shapeCast S1x1 (multiReduction .add [0] S1 (shapeCast S4096x1 (multiReduction .add [1] S4096 w 0x00000000#32 h1 hφ hacc) c1)
        0x00000000#32 h2 hφ hacc) c2 (ix2 (0 : Fin 1) (0 : Fin 1))
      = ∑ r : Fin 4096, ∑ l : Fin 128, w (ix2 r l) := by
  refine (Cert.TriInv.asColumn_apply 1 _ c2 0 0).trans ?_
  refine (Ideal.multiReduction_add_single _ _ h2 hφ hacc (ix1 (0 : Fin 1))).trans ?_
  refine Finset.sum_congr rfl fun r _ => ?_
  have e : h2.lift (ix1 (0 : Fin 1)) r = ix2 r (0 : Fin 1) := by
    funext a; apply Fin.ext
    match a with
    | ⟨0, _⟩ => rfl
    | ⟨1, _⟩ => rfl
  rw [e]
  refine (Cert.TriInv.asColumn_apply 4096 _ c1 r 0).trans ?_
  exact Cert.Keepdims.rowSum_apply w _ h1 hφ hacc r

/-- Entry (0, 0) of the stored value: the accumulator's entry plus the block's number of hits. -/
theorem pay_hits (x0 x1 x2 : Vec Ideal S4096x128 .f32) (v : Vec Ideal S1x2 .f32) :
    k0_pay2 (F := Ideal) x0 x1 x2 v (ix2 (0 : Fin 1) (0 : Fin 2))
      = v (ix2 (0 : Fin 1) (0 : Fin 2))
        + ∑ r : Fin 4096, ∑ l : Fin 128, hitOf (x2 (ix2 r l)) (x1 (ix2 r l)) (x0 (ix2 r l)) := by
  unfold k0_pay2
  dsimp only
  have e0 : shapeCast S4096x128 x0 shapeCasts_S4096x128_S4096x128 = x0 := shapeCast_self x0 _
  have e1 : shapeCast S4096x128 x1 shapeCasts_S4096x128_S4096x128 = x1 := shapeCast_self x1 _
  have e2 : shapeCast S4096x128 x2 shapeCasts_S4096x128_S4096x128 = x2 := shapeCast_self x2 _
  rw [e0, e1, e2]
  refine (congrFun (shapeCast_self _ shapeCasts_S1x2_S1x2) _).trans ?_
  refine congrArg (fun z => v (ix2 (0 : Fin 1) (0 : Fin 2)) + z) ?_
  refine (concatenate_pair_apply_left (t := S1x2) (s₁ := S1x1) (s₂ := S1x1) (1 : Fin 2) _ _ concatenates_S1x1_S1x1_S1x2_d1 (ix2 (0 : Fin 1) (0 : Fin 2)) rfl
    (ix2 (0 : Fin 1) (0 : Fin 1)) ?_).trans ?_
  · intro b
    match b with
    | ⟨0, _⟩ => rfl
    | ⟨1, _⟩ => rfl
  refine (blockSum _ _ _ _ _ (.inl rfl) rfl).trans ?_
  refine Finset.sum_congr rfl fun r _ => Finset.sum_congr rfl fun l _ => ?_
  exact sitofp_extui_bit _

/-- Entry (0, 1) of the stored value: the accumulator's entry plus the block's mask weight. -/
theorem pay_mask (x0 x1 x2 : Vec Ideal S4096x128 .f32) (v : Vec Ideal S1x2 .f32) :
    k0_pay2 (F := Ideal) x0 x1 x2 v (ix2 (0 : Fin 1) (1 : Fin 2))
      = v (ix2 (0 : Fin 1) (1 : Fin 2)) + ∑ r : Fin 4096, ∑ l : Fin 128, x2 (ix2 r l) := by
  unfold k0_pay2
  dsimp only
  have e0 : shapeCast S4096x128 x0 shapeCasts_S4096x128_S4096x128 = x0 := shapeCast_self x0 _
  have e1 : shapeCast S4096x128 x1 shapeCasts_S4096x128_S4096x128 = x1 := shapeCast_self x1 _
  have e2 : shapeCast S4096x128 x2 shapeCasts_S4096x128_S4096x128 = x2 := shapeCast_self x2 _
  rw [e0, e1, e2]
  refine (congrFun (shapeCast_self _ shapeCasts_S1x2_S1x2) _).trans ?_
  refine congrArg (fun z => v (ix2 (0 : Fin 1) (1 : Fin 2)) + z) ?_
  refine (concatenate_pair_apply_right (t := S1x2) (s₁ := S1x1) (s₂ := S1x1) (1 : Fin 2) _ _ concatenates_S1x1_S1x1_S1x2_d1 (ix2 (0 : Fin 1) (1 : Fin 2)) rfl rfl
    (ix2 (0 : Fin 1) (0 : Fin 1)) ?_ ?_).trans ?_
  · intro b hb
    match b with
    | ⟨0, _⟩ => rfl
    | ⟨1, _⟩ => exact absurd rfl hb
  · rfl
  exact blockSum _ _ _ _ _ (.inl rfl) rfl

/-- The cleared accumulator is zero at both entries. -/
theorem pay_zero (j : S1x2.Idx) : k0_pay1 (F := Ideal) j = 0 := by
  unfold k0_pay1
  simp only [shapeCast_self]
  exact Ideal.ofBits_zero_f32

end Cert.KernelIdeal.Payload

end
-- ==== Proof.Accum.lean ====
/-
  The accumulator across the grid.

  The 32 grid points run in order; point k reads block k of the three [131072, 128] arrays (rows 4096·k … 4096·k+4095)
  and adds that block's number of hits and mask weight to the two entries of the [1, 2] accumulator, which point 0
  first clears. So after point n the accumulator holds, entry by entry, the sum over the blocks 0 … n of the blocks'
  counts — an induction on the point — and the output block written at the last point holds the same two totals.
-/
import proofs.«156592_j90409061581302_2_alg».proof.Proof.Pieces
import proofs.«156592_j90409061581302_2_alg».proof.Proof.Payload

set_option maxRecDepth 16384

noncomputable section

namespace Cert.KernelIdeal.Accum

open Cert.KernelIdeal Cert.KernelIdeal.Gen Cert.PitchLoss
open Idealize.ShloMosaic Idealize.ShloMosaic.TcCoe Idealize.ShloMosaic.ValueIdx Idealize.SL.Sem

variable (m : (ℓ : Loc nD τ sig) → Buf (Elt Ideal) ℓ)

/-- The three input blocks at a point: u's, e's and the mask's. -/
abbrev bU (c : Dev nD) (t : Fin cfg0.N) : Vec Ideal S4096x128 .f32 := iblk m c 0 t
abbrev bE (c : Dev nD) (t : Fin cfg0.N) : Vec Ideal S4096x128 .f32 := iblk m c 1 t
abbrev bA (c : Dev nD) (t : Fin cfg0.N) : Vec Ideal S4096x128 .f32 := iblk m c 2 t

/-- Block k's number of hits (zero past the grid). -/
def blockHits (c : Dev nD) (k : ℕ) : EReal :=
  if h : k < cfg0.N then
    ∑ r : Fin 4096, ∑ l : Fin 128, hitOf (bA m c ⟨k, h⟩ (ix2 r l)) (bE m c ⟨k, h⟩ (ix2 r l)) (bU m c ⟨k, h⟩ (ix2 r l))
  else 0

/-- Block k's mask weight (zero past the grid). -/
def blockMask (c : Dev nD) (k : ℕ) : EReal :=
  if h : k < cfg0.N then ∑ r : Fin 4096, ∑ l : Fin 128, bA m c ⟨k, h⟩ (ix2 r l) else 0

/-- The accumulator after the first point. -/
theorem scr_first (c : Dev nD) (t : Fin cfg0.N) (h0 : t.val % 32 = 0) (h1 : ¬t.val % 32 = 31) :
    (outsAt0 m c t.val t.isLt).2 = k0_pay2 (bU m c t) (bE m c t) (bA m c t) (k0_pay1 (F := Ideal)) :=
  (congrArg Prod.snd (outsAt0_A m c t h0 h1)).trans
    (Pieces.acc_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))

/-- The accumulator after a middle point, over what the point before left. -/
theorem scr_mid (c : Dev nD) (t : Fin cfg0.N) (h0 : ¬t.val % 32 = 0) (h1 : ¬t.val % 32 = 31) :
    (outsAt0 m c t.val t.isLt).2
      = k0_pay2 (bU m c t) (bE m c t) (bA m c t) (outsAt0 m c (t.val - 1) (Nat.lt_of_le_of_lt (Nat.sub_le _ _) t.isLt)).2 :=
  (congrArg Prod.snd (outsAt0_B m c t h0 h1)).trans
    (Pieces.acc_mid c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2)

/-- The accumulator after the last point, over what the point before left. -/
theorem scr_last (c : Dev nD) (t : Fin cfg0.N) (h0 : ¬t.val % 32 = 0) (h1 : t.val % 32 = 31) :
    (outsAt0 m c t.val t.isLt).2
      = k0_pay2 (bU m c t) (bE m c t) (bA m c t) (outsAt0 m c (t.val - 1) (Nat.lt_of_le_of_lt (Nat.sub_le _ _) t.isLt)).2 :=
  (congrArg Prod.snd (outsAt0_C m c t h0 h1)).trans
    (Pieces.acc_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2)

/-- The output block written at the last point is the accumulator as that point leaves it. -/
theorem out_eq_scr (c : Dev nD) (t : Fin cfg0.N) (h0 : ¬t.val % 32 = 0) (h1 : t.val % 32 = 31) :
    (outsAt0 m c t.val t.isLt).1 = (outsAt0 m c t.val t.isLt).2 :=
  ((congrArg Prod.fst (outsAt0_C m c t h0 h1)).trans
    (Pieces.out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2)).trans (scr_last m c t h0 h1).symm

/-- After point n the accumulator's two entries are the sums, over the blocks 0 … n, of the blocks' hits and of the
    blocks' mask weights. -/
theorem acc_eq (c : Dev nD) : ∀ (n : ℕ) (hn : n < cfg0.N),
    (outsAt0 m c n hn).2 (ix2 (0 : Fin 1) (0 : Fin 2)) = ∑ k ∈ Finset.range (n + 1), blockHits m c k
    ∧ (outsAt0 m c n hn).2 (ix2 (0 : Fin 1) (1 : Fin 2)) = ∑ k ∈ Finset.range (n + 1), blockMask m c k
  | 0, hn => by
    have e := scr_first m c ⟨0, hn⟩ rfl (show ¬(0 : ℕ) % 32 = 31 by decide)
    refine ⟨(congrFun e _).trans ((Payload.pay_hits _ _ _ _).trans ?_), (congrFun e _).trans ((Payload.pay_mask _ _ _ _).trans ?_)⟩
    · rw [Payload.pay_zero, zero_add, Finset.sum_range_succ, Finset.sum_range_zero, zero_add]
      unfold blockHits; rw [dif_pos hn]
    · rw [Payload.pay_zero, zero_add, Finset.sum_range_succ, Finset.sum_range_zero, zero_add]
      unfold blockMask; rw [dif_pos hn]
  | n + 1, hn => by
    have hN : cfg0.N = 32 := N_0
    obtain ⟨ih0, ih1⟩ := acc_eq c n (Nat.lt_of_succ_lt hn)
    have h0 : ¬(⟨n + 1, hn⟩ : Fin cfg0.N).val % 32 = 0 := by dsimp only; omega
    have e : (outsAt0 m c (n + 1) hn).2
        = k0_pay2 (bU m c ⟨n + 1, hn⟩) (bE m c ⟨n + 1, hn⟩) (bA m c ⟨n + 1, hn⟩) (outsAt0 m c n (Nat.lt_of_succ_lt hn)).2 := by
      by_cases h1 : (⟨n + 1, hn⟩ : Fin cfg0.N).val % 32 = 31
      · exact scr_last m c ⟨n + 1, hn⟩ h0 h1
      · exact scr_mid m c ⟨n + 1, hn⟩ h0 h1
    refine ⟨(congrFun e _).trans ((Payload.pay_hits _ _ _ _).trans ?_), (congrFun e _).trans ((Payload.pay_mask _ _ _ _).trans ?_)⟩
    · have hb : blockHits m c (n + 1) = ∑ r : Fin 4096, ∑ l : Fin 128,
          hitOf (bA m c ⟨n + 1, hn⟩ (ix2 r l)) (bE m c ⟨n + 1, hn⟩ (ix2 r l)) (bU m c ⟨n + 1, hn⟩ (ix2 r l)) := by
        unfold blockHits; rw [dif_pos hn]
      rw [ih0, Finset.sum_range_succ _ (n + 1), hb]
    · have hb : blockMask m c (n + 1) = ∑ r : Fin 4096, ∑ l : Fin 128, bA m c ⟨n + 1, hn⟩ (ix2 r l) := by
        unfold blockMask; rw [dif_pos hn]
      rw [ih1, Finset.sum_range_succ _ (n + 1), hb]

/-- The last point. -/
def tLast : Fin cfg0.N := ⟨31, by rw [show cfg0.N = 32 from N_0]; decide⟩

/-- The output block as the last point writes it: the two totals over all 32 blocks. -/
theorem out_total (c : Dev nD) :
    (outsAt0 m c tLast.val tLast.isLt).1 (ix2 (0 : Fin 1) (0 : Fin 2)) = ∑ k ∈ Finset.range 32, blockHits m c k
    ∧ (outsAt0 m c tLast.val tLast.isLt).1 (ix2 (0 : Fin 1) (1 : Fin 2)) = ∑ k ∈ Finset.range 32, blockMask m c k := by
  have e := out_eq_scr m c tLast (show ¬(31 : ℕ) % 32 = 0 by decide) (show (31 : ℕ) % 32 = 31 by decide)
  have h := acc_eq m c tLast.val tLast.isLt
  exact ⟨(congrFun e _).trans h.1, (congrFun e _).trans h.2⟩

end Cert.KernelIdeal.Accum

end
-- ==== Proof.Blocks.lean ====
/-
  The three arrays the region stages, and a block's entry in the array's coordinates.

  Before the region the host cuts channel 0 out of u and out of e, builds the activity mask, and lays each of the
  three vectors of T = 131072 · 128 entries out as a [131072, 128] array, row-major: entry (R, l) is the vector's
  entry 128·R + l. Grid point t stages rows 4096·t … 4096·t + 4095 of each array, so entry (r, l) of its block is
  the array's entry (4096·t + r, l), that is the vector's entry 128·(4096·t + r) + l.
-/
import proofs.«156592_j90409061581302_2_alg».proof.Proof.Gen.KernelIdeal.Frame
import proofs.«156592_j90409061581302_2_alg».proof.Proof.Spec
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.PitchLoss
open Idealize.ShloMosaic Idealize.ShloMosaic.TcCoe Idealize.ShloMosaic.ValueIdx Idealize.SL.Sem Idealize.ShloMosaic.StableHlo

variable (m : (ℓ : Loc nD τ sig) → Buf (Elt Ideal) ℓ)

/-- Channel 0 of u, of e, and the activity mask, as vectors over the timesteps (the specification's functions of
    the argument arrays). -/
abbrev vecU (c : Dev nD) : FVec Ideal ST .f32 :=
  col (m ((c : Thread nD τ).loc main_arg0)) slices_S16777216x2_S16777216x1_0_0 shapeCasts_S16777216x1_S16777216
abbrev vecE (c : Dev nD) : FVec Ideal ST .f32 :=
  col (m ((c : Thread nD τ).loc main_arg1)) slices_S16777216x2_S16777216x1_0_0 shapeCasts_S16777216x1_S16777216
abbrev vecA (c : Dev nD) : FVec Ideal ST .f32 :=
  mask (m ((c : Thread nD τ).loc main_arg2)) (m ((c : Thread nD τ).loc main_arg3)) bcast_S_S_
    reduceWindows_S16777216_S16777216_w16777216s1p16777215_0 h_S_

/-- The array row that row r of point t's block is. -/
def rowOf (t : Fin cfg0.N) (r : Fin 4096) : Fin 131072 :=
  ⟨t.val * 4096 + r.val, by have := t.isLt; have hN : cfg0.N = 32 := N_0; have := r.isLt; omega⟩

/-- The timestep that entry (r, l) of point t's block is. -/
def stepOf (t : Fin cfg0.N) (r : Fin 4096) (l : Fin 128) : Fin 16777216 :=
  ⟨(t.val * 4096 + r.val) * 128 + l.val, by
    have := t.isLt; have hN : cfg0.N = 32 := N_0; have := r.isLt; have := l.isLt; omega⟩

/-- A vector over the timesteps laid out row-major as [131072, 128], read at (R, l): the vector's entry 128·R + l. -/
theorem rows_apply (Y : FVec Ideal ST .f32) (h : ST.ShapeCasts S131072x128) (R : Fin 131072) (l : Fin 128) :
    shapeCast S131072x128 Y h (ix2 R l)
      = Y (ix1 (⟨R.val * 128 + l.val, by have := R.isLt; have := l.isLt; omega⟩ : Fin 16777216)) := by
  refine shapeCast_apply Y h (ix2 R l) (ix1 _) ?_
  rw [Shape.rowMajor_val_two, Shape.rowMajor_val_one]
  rfl

/-- Window 0's block index at point t: block row t, block column 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry (r, l) of window 0's block at point t is the staged array's entry (4096·t + r, l). -/
theorem blk0_read (X : S131072x128.Idx → EReal) (t : Fin cfg0.N) (r : Fin 4096) (l : Fin 128) :
    ((cfg0.win 0).blk t).view.read (Elt Ideal) X (ix2 r l) = X (ix2 (rowOf t r) l) := by
  rw [View.read_apply]
  show X _ = X _
  refine congrArg X ?_
  funext a
  apply Fin.ext
  match a with
  | ⟨0, _⟩ =>
    show win0_0.index t 0 * 4096 + 1 * r.val = t.val * 4096 + r.val
    rw [(idx0 t).1]; omega
  | ⟨1, _⟩ =>
    show win0_0.index t 1 * 128 + 1 * l.val = l.val
    rw [(idx0 t).2]; omega

/-- Window 1's block index at point t: block row t, block column 0. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry (r, l) of window 1's block at point t is the staged array's entry (4096·t + r, l). -/
theorem blk1_read (X : S131072x128.Idx → EReal) (t : Fin cfg0.N) (r : Fin 4096) (l : Fin 128) :
    ((cfg0.win 1).blk t).view.read (Elt Ideal) X (ix2 r l) = X (ix2 (rowOf t r) l) := by
  rw [View.read_apply]
  show X _ = X _
  refine congrArg X ?_
  funext a
  apply Fin.ext
  match a with
  | ⟨0, _⟩ =>
    show win0_1.index t 0 * 4096 + 1 * r.val = t.val * 4096 + r.val
    rw [(idx1 t).1]; omega
  | ⟨1, _⟩ =>
    show win0_1.index t 1 * 128 + 1 * l.val = l.val
    rw [(idx1 t).2]; omega

/-- Window 2's block index at point t: block row t, block column 0. -/
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Entry (r, l) of window 2's block at point t is the staged array's entry (4096·t + r, l). -/
theorem blk2_read (X : S131072x128.Idx → EReal) (t : Fin cfg0.N) (r : Fin 4096) (l : Fin 128) :
    ((cfg0.win 2).blk t).view.read (Elt Ideal) X (ix2 r l) = X (ix2 (rowOf t r) l) := by
  rw [View.read_apply]
  show X _ = X _
  refine congrArg X ?_
  funext a
  apply Fin.ext
  match a with
  | ⟨0, _⟩ =>
    show win0_2.index t 0 * 4096 + 1 * r.val = t.val * 4096 + r.val
    rw [(idx2 t).1]; omega
  | ⟨1, _⟩ =>
    show win0_2.index t 1 * 128 + 1 * l.val = l.val
    rw [(idx2 t).2]; omega

/-- The region finds the first staged array at channel 0 of u laid out as [131072, 128]. -/
theorem V_u (c : Dev nD) : (V m c main_v6 : S131072x128.Idx → EReal)
    = shapeCast S131072x128 (vecU m c) shapeCasts_S16777216_S131072x128 := by
  dsimp only [V, V0]
  simp only [hostOps0, hostOps0_1, hostOps0_2, List.flatten_cons, List.flatten_nil, List.append_nil, List.cons_append,
    List.nil_append]
  after_results
  rfl

/-- The second at channel 0 of e. -/
theorem V_e (c : Dev nD) : (V m c main_v9 : S131072x128.Idx → EReal)
    = shapeCast S131072x128 (vecE m c) shapeCasts_S16777216_S131072x128 := by
  dsimp only [V, V0]
  simp only [hostOps0, hostOps0_1, hostOps0_2, List.flatten_cons, List.flatten_nil, List.append_nil, List.cons_append,
    List.nil_append]
  after_results
  rfl

attribute [local irreducible] Host.reduceWindow in
/-- The third at the activity mask. -/
theorem V_a (c : Dev nD) : (V m c main_v10 : S131072x128.Idx → EReal)
    = shapeCast S131072x128 (vecA m c) shapeCasts_S16777216_S131072x128 := by
  dsimp only [V, V0]
  simp only [hostOps0, hostOps0_1, hostOps0_2, List.flatten_cons, List.flatten_nil, List.append_nil, List.cons_append,
    List.nil_append]
  after_results
  rfl

/-- Entry (r, l) of vecU's block at point t is vecU's entry at timestep 128·(4096·t + r) + l. -/
theorem vecU_apply (c : Dev nD) (t : Fin cfg0.N) (r : Fin 4096) (l : Fin 128) :
    iblk m c 0 t (ix2 r l) = vecU m c (ix1 (stepOf t r l)) := by
  unfold iblk
  refine (blk0_read _ t r l).trans ?_
  refine (congrFun (V_u m c) _).trans ?_
  exact rows_apply _ _ (rowOf t r) l

/-- Entry (r, l) of vecE's block at point t is vecE's entry at timestep 128·(4096·t + r) + l. -/
theorem vecE_apply (c : Dev nD) (t : Fin cfg0.N) (r : Fin 4096) (l : Fin 128) :
    iblk m c 1 t (ix2 r l) = vecE m c (ix1 (stepOf t r l)) := by
  unfold iblk
  refine (blk1_read _ t r l).trans ?_
  refine (congrFun (V_e m c) _).trans ?_
  exact rows_apply _ _ (rowOf t r) l

/-- Entry (r, l) of vecA's block at point t is vecA's entry at timestep 128·(4096·t + r) + l. -/
theorem vecA_apply (c : Dev nD) (t : Fin cfg0.N) (r : Fin 4096) (l : Fin 128) :
    iblk m c 2 t (ix2 r l) = vecA m c (ix1 (stepOf t r l)) := by
  unfold iblk
  refine (blk2_read _ t r l).trans ?_
  refine (congrFun (V_a m c) _).trans ?_
  exact rows_apply _ _ (rowOf t r) l

end Cert.KernelIdeal.Blocks

end
-- ==== Proof.LibNatCoords.lean ====
/-
  GENERAL LEMMAS, independent of any program: matrices and vectors over the extended reals read by natural-number
  coordinates, and a sum over consecutive naturals cut into slabs.

  `at2 X r k` is entry (r, k) of a matrix given over its index type, `0` outside the matrix (`at1` likewise for a
  vector). Reading by naturals turns the relation between a block's local coordinates and the whole matrix's
  coordinates — (block index) · (block extent) + (local coordinate) — into plain arithmetic on naturals, with no
  dependent index types in the way. `at2_idx` / `at1_idx` pass from an entry at an index to the natural-number
  reading, `at2_of_lt` / `at1_of_lt` back.

  `sum_range_mul`: in any additive commutative monoid — the extended reals included, with no finiteness asked — the
  sum over the first `a · b` naturals is the sum over `a` consecutive slabs of the sums over each slab's `b`
  naturals. This is the law that joins a contraction accumulated slab by slab (a matrix product whose inner
  dimension is cut into blocks) to the same contraction formed in one sum.
-/
import Idealize.ShloMosaic.PureOps.Ideal
import Idealize.ShloMosaic.Lib.ValueIdx

noncomputable section

namespace Cert.NatCoords

open Idealize.ShloMosaic Idealize.ShloMosaic.ValueIdx

/-- Entry `(r, k)` of an `n0 × n1` matrix, by natural-number coordinates; `0` outside the matrix. -/
def at2 {n0 n1 : ℕ} (X : (⟨2, ![n0, n1]⟩ : Shape).Idx → EReal) (r k : ℕ) : EReal :=
  if h : r < n0 ∧ k < n1 then X (ix2 ⟨r, h.1⟩ ⟨k, h.2⟩) else 0

/-- Inside the matrix `at2` is the entry. -/
theorem at2_of_lt {n0 n1 : ℕ} (X : (⟨2, ![n0, n1]⟩ : Shape).Idx → EReal) (r k : ℕ) (hr : r < n0) (hk : k < n1) :
    at2 X r k = X (ix2 ⟨r, hr⟩ ⟨k, hk⟩) := by
  unfold at2; rw [dif_pos ⟨hr, hk⟩]

/-- An entry at an index is `at2` at the index's coordinates. -/
theorem at2_idx {n0 n1 : ℕ} (X : (⟨2, ![n0, n1]⟩ : Shape).Idx → EReal) (j : (⟨2, ![n0, n1]⟩ : Shape).Idx) :
    X j = at2 X (j 0).val (j 1).val := by
  rw [at2_of_lt X _ _ (j 0).isLt (j 1).isLt]
  exact congrArg X (eq_ix2 j)

/-- Entry `s` of a vector of `n` entries, by its natural-number coordinate; `0` outside. -/
def at1 {n : ℕ} (b : (⟨1, ![n]⟩ : Shape).Idx → EReal) (s : ℕ) : EReal :=
  if h : s < n then b (ix1 ⟨s, h⟩) else 0

/-- Inside the vector `at1` is the entry. -/
theorem at1_of_lt {n : ℕ} (b : (⟨1, ![n]⟩ : Shape).Idx → EReal) (s : ℕ) (hs : s < n) : at1 b s = b (ix1 ⟨s, hs⟩) := by
  unfold at1; rw [dif_pos hs]

/-- An entry at an index is `at1` at the index's coordinate. -/
theorem at1_idx {n : ℕ} (b : (⟨1, ![n]⟩ : Shape).Idx → EReal) (j : (⟨1, ![n]⟩ : Shape).Idx) : b j = at1 b (j 0).val := by
  rw [at1_of_lt b _ (j 0).isLt]
  exact congrArg b (eq_ix1 j)

/-- A sum over the first `a · b` naturals is the sum, over `a` consecutive slabs, of the sums over each slab's `b`
    naturals — in any additive commutative monoid. -/
theorem sum_range_mul {β : Type*} [AddCommMonoid β] (f : ℕ → β) (b : ℕ) : ∀ a : ℕ,
    ∑ k ∈ Finset.range (a * b), f k = ∑ s ∈ Finset.range a, ∑ kk ∈ Finset.range b, f (b * s + kk)
  | 0 => by simp
  | a + 1 => by
    rw [Nat.succ_mul, Finset.sum_range_add, sum_range_mul f b a, Finset.sum_range_succ]
    congr 1
    exact Finset.sum_congr rfl fun kk _ => by rw [Nat.mul_comm]

end Cert.NatCoords

end
-- ==== Proof.Regroup.lean ====
/-
  The sum of a vector over all the timesteps, regrouped by block, row and lane.

  The T = 16777216 = 32 · 4096 · 128 timesteps are laid out as 32 blocks of 4096 rows of 128 lanes, timestep
  (k · 4096 + r) · 128 + l sitting in block k, row r, lane l. The sum over all the timesteps is the sum over the blocks
  of the sums over each block's rows of the sums over each row's lanes. Addition in the extended reals is commutative
  and associative, so the regrouping asks no finiteness of the entries: it is the slab law of sums over consecutive
  naturals, applied twice (first 131072 slabs of 128 lanes, then 32 slabs of 4096 rows).
-/
import proofs.«156592_j90409061581302_2_alg».proof.Proof.Spec
import proofs.«156592_j90409061581302_2_alg».proof.Proof.LibNatCoords

noncomputable section

namespace Cert.PitchLoss

open Idealize.ShloMosaic Idealize.ShloMosaic.ValueIdx Cert.NatCoords

/-- The sum over all T = 32 · 4096 · 128 timesteps is the sum over 32 blocks, 4096 rows and 128 lanes of the entry at
    timestep (block · 4096 + row) · 128 + lane. -/
theorem total_blocks (x : FVec Ideal ST .f32) :
    total x = ∑ k : Fin 32, ∑ r : Fin 4096, ∑ l : Fin 128,
      x (ix1 (⟨(k.val * 4096 + r.val) * 128 + l.val, by have := k.isLt; have := r.isLt; have := l.isLt; omega⟩ : Fin 16777216)) := by
  -- the two factorisations of the extent, as equations between numerals
  have e1 : (16777216 : ℕ) = 131072 * 128 := by norm_num
  have e2 : (131072 : ℕ) = 32 * 4096 := by norm_num
  calc total x
      -- read every entry by its natural-number coordinate
      = ∑ t : Fin 16777216, at1 x t.val := Finset.sum_congr rfl fun t _ => (at1_of_lt x t.val t.isLt).symm
    _ = ∑ t ∈ Finset.range 16777216, at1 x t := Fin.sum_univ_eq_sum_range (at1 x) 16777216
    -- 131072 slabs of 128 lanes
    _ = ∑ t ∈ Finset.range (131072 * 128), at1 x t := congrArg (fun n => ∑ t ∈ Finset.range n, at1 x t) e1
    _ = ∑ s ∈ Finset.range 131072, ∑ l ∈ Finset.range 128, at1 x (128 * s + l) := sum_range_mul (at1 x) 128 131072
    -- the 131072 rows are 32 slabs of 4096 rows
    _ = ∑ s ∈ Finset.range (32 * 4096), ∑ l ∈ Finset.range 128, at1 x (128 * s + l) :=
        congrArg (fun n => ∑ s ∈ Finset.range n, ∑ l ∈ Finset.range 128, at1 x (128 * s + l)) e2
    _ = ∑ k ∈ Finset.range 32, ∑ r ∈ Finset.range 4096, ∑ l ∈ Finset.range 128, at1 x (128 * (4096 * k + r) + l) :=
        sum_range_mul (fun s => ∑ l ∈ Finset.range 128, at1 x (128 * s + l)) 4096 32
    -- back from sums over initial segments of the naturals to sums over the finite index types
    _ = ∑ k : Fin 32, ∑ r : Fin 4096, ∑ l : Fin 128, at1 x (128 * (4096 * k.val + r.val) + l.val) := by
        rw [← Fin.sum_univ_eq_sum_range
          (fun k => ∑ r ∈ Finset.range 4096, ∑ l ∈ Finset.range 128, at1 x (128 * (4096 * k + r) + l)) 32]
        refine Finset.sum_congr rfl fun k _ => ?_
        rw [← Fin.sum_univ_eq_sum_range (fun r => ∑ l ∈ Finset.range 128, at1 x (128 * (4096 * k.val + r) + l)) 4096]
        refine Finset.sum_congr rfl fun r _ => ?_
        exact (Fin.sum_univ_eq_sum_range (fun l => at1 x (128 * (4096 * k.val + r.val) + l)) 128).symm
    -- every coordinate met is inside the vector, where the reading by naturals is the entry
    _ = _ := by
        refine Finset.sum_congr rfl fun k _ => Finset.sum_congr rfl fun r _ => Finset.sum_congr rfl fun l _ => ?_
        have e : 128 * (4096 * k.val + r.val) + l.val = (k.val * 4096 + r.val) * 128 + l.val := by ring
        rw [e]
        exact at1_of_lt x _ _

end Cert.PitchLoss

end
-- ==== Proof.Totals.lean ====
/-
  The two totals the accumulator ends with are the specification's two sums.

  Block k, row r, lane l of the staged arrays is timestep 128·(4096·k + r) + l, and these triples run over every
  timestep exactly once; so the sum over the 32 blocks of the blocks' hits is the number of hits over all the
  timesteps, and likewise for the mask weight. Addition of extended reals is commutative and associative, so the
  regrouping needs no finiteness.
-/
import proofs.«156592_j90409061581302_2_alg».proof.Proof.Accum
import proofs.«156592_j90409061581302_2_alg».proof.Proof.Blocks
import proofs.«156592_j90409061581302_2_alg».proof.Proof.Regroup

set_option maxRecDepth 16384

noncomputable section

namespace Cert.KernelIdeal.Totals

open Cert.KernelIdeal Cert.KernelIdeal.Gen Cert.PitchLoss Cert.KernelIdeal.Blocks
open Idealize.ShloMosaic Idealize.ShloMosaic.TcCoe Idealize.ShloMosaic.ValueIdx Idealize.SL.Sem

variable (m : (ℓ : Loc nD τ sig) → Buf (Elt Ideal) ℓ)

/-- The blocks' hits sum to the number of hits over all the timesteps. -/
theorem hits_total (c : Dev nD) :
    ∑ k ∈ Finset.range 32, Accum.blockHits m c k = total (hits (vecA m c) (vecE m c) (vecU m c)) := by
  rw [total_blocks, Finset.sum_range]
  refine Finset.sum_congr rfl fun k _ => ?_
  have hk : k.val < cfg0.N := by rw [show cfg0.N = 32 from N_0]; exact k.isLt
  unfold Accum.blockHits
  rw [dif_pos hk]
  refine Finset.sum_congr rfl fun r _ => Finset.sum_congr rfl fun l _ => ?_
  have eA := vecA_apply m c ⟨k.val, hk⟩ r l
  have eE := vecE_apply m c ⟨k.val, hk⟩ r l
  have eU := vecU_apply m c ⟨k.val, hk⟩ r l
  show hitOf (iblk m c 2 ⟨k.val, hk⟩ (ix2 r l)) (iblk m c 1 ⟨k.val, hk⟩ (ix2 r l)) (iblk m c 0 ⟨k.val, hk⟩ (ix2 r l)) = _
  rw [eA, eE, eU]
  rfl

/-- The blocks' mask weights sum to the mask's weight over all the timesteps. -/
theorem mask_total (c : Dev nD) :
    ∑ k ∈ Finset.range 32, Accum.blockMask m c k = total (vecA m c) := by
  rw [total_blocks, Finset.sum_range]
  refine Finset.sum_congr rfl fun k _ => ?_
  have hk : k.val < cfg0.N := by rw [show cfg0.N = 32 from N_0]; exact k.isLt
  unfold Accum.blockMask
  rw [dif_pos hk]
  refine Finset.sum_congr rfl fun r _ => Finset.sum_congr rfl fun l _ => ?_
  have eA := vecA_apply m c ⟨k.val, hk⟩ r l
  show iblk m c 2 ⟨k.val, hk⟩ (ix2 r l) = _
  rw [eA]
  rfl

end Cert.KernelIdeal.Totals

end
-- ==== Proof.OutArray.lean ====
/-
  The kernel's output array after the grid.

  The kernel's one output window (window 3) is a [1, 2] block of the [1, 2] result array, whose block index never
  moves, and it is written back at one grid point only: the last of the 32. That write-back copies what the output's
  staging buffer holds after the last point into block (0, 0) of the array, and block (0, 0) of a [1, 2] array read
  through zero offsets is the whole array. So the array ends holding exactly what the staging buffer holds after
  point 31: one write-back, whose block covers every index of the array.
-/
import proofs.«156592_j90409061581302_2_alg».proof.Proof.Gen.KernelIdeal.Frame
import Idealize.ShloMosaic.Lib.Pipeline.Value
import Idealize.ShloMosaic.PureOps.Ideal

noncomputable section

namespace Cert.KernelIdeal.OutArray

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The last of the 32 grid points. -/
def tLast : Fin cfg0.N := ⟨31, by rw [show cfg0.N = 32 from N_0]; decide⟩

/-- What the output's staging buffer holds after the last point, as contents of the result array (its one block is
    the array). -/
abbrev result (c : Dev nD) : Buf (Elt Ideal) ((c : Thread nD τ).loc main_v11) := (outsAt0 m c tLast.val tLast.isLt).1

/-- The one write-back, at point 31, writes it: block (0, 0) of the [1, 2] array read through zero offsets is the
    array. -/
theorem flushed_eq (c : Dev nD) (t : Fin cfg0.N) (hf : (cfg0.win 3).flush t = true) :
    (dats m 0 c).flushed 3 t = ((cfg0.win 3).blk t).view.read (Elt Ideal) (result m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3]
  have hz' : (fun a => win0_3.index tLast a * main_v11.ty.shape.size a) = fun _ => 0 :=
    funext fun a => by fin_cases a <;> decide +kernel
  exact (Memref.read_access_unit_zero (Elt Ideal) main_v11 hz' (fun a => by rw [congrFun hz' a]; simp) (result m c)).symm

/-- So the result array ends holding what the staging buffer holds after point 31: that point's block covers every
    index of the array. -/
theorem final_out (c : Dev nD) : (dats m 0 c).arrAt 3 cfg0.N = (outsAt0 m c tLast.val tLast.isLt).1 :=
  (dats m 0 c).arrAt_eq_of_cover 3 (result m c) (flushed_eq m c) fun i =>
    ⟨tLast, (flush0_3 tLast).mpr (show (31 : ℕ) % 32 = 31 by decide), by
      show i ∈ ((View.whole main_v11).slice (win0_3.rect tLast)).set
      rw [View.set_slice_whole, Rect.mem_set_unit]
      intro a
      have h0 : (i 0 : Nat) < 1 := (i 0).isLt
      have h1 : (i 1 : Nat) < 2 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 1 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 2 from by decide +kernel]
        omega⟩

end Cert.KernelIdeal.OutArray

end
-- ==== Proof.Tail.lean ====
/-
  After the region: what the host's last operations make of the output array.

  The host cuts each of the [1, 2] array's two entries out as a [1, 1] slice, drops the unit axes to a scalar, and
  divides the first by the second.
-/
import proofs.«156592_j90409061581302_2_alg».proof.Proof.Blocks
import Idealize.ShloMosaic.Lib.StableHlo.Run

set_option maxRecDepth 16384

noncomputable section

namespace Cert.KernelIdeal.Tail

open Cert.KernelIdeal Cert.KernelIdeal.Gen Cert.PitchLoss Cert.KernelIdeal.Blocks
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- One entry of a [1, 2] array cut out as a [1, 1] slice and read as a scalar: the entry. -/
theorem entry_apply (R : FVec Ideal S1x2 .f32) (k : Fin 2) (hs : S1x2.Slices ![0, k.val] S1x1) (hc : S1x1.ShapeCasts S_)
    (j : S_.Idx) : shapeCast S_ (extractStridedSlice S1x1 ![0, k.val] R hs) hc j = R (ix2 (0 : Fin 1) k) := by
  refine (shapeCast_apply _ hc j (ix2 (0 : Fin 1) (0 : Fin 1)) ?_).trans ?_
  · rw [Shape.rowMajor_val_two]
    have h1 := (S_.rowMajor j).isLt
    have h2 : S_.numel = 1 := rfl
    show 0 * 1 + 0 = _
    omega
  · refine extractStridedSlice_apply _ R hs _ (ix2 (0 : Fin 1) k) fun a => ?_
    match a with
    | ⟨0, _⟩ => rfl
    | ⟨1, _⟩ => show k.val = k.val + 0; omega

/-- What the host's last five operations make of the region's output array. -/
theorem tail_of (c : Dev nD) (R : FVec Ideal S1x2 .f32) (hR : (dats m 0 c).arrAt 3 cfg0.N = R) :
    Pipeline.afterTail₀ cfgs (dats m) 0 (V0 m) [hostOps1] c main_v16
      = Host.divf (F := Ideal) (φ := .f32) (shapeCast S_ (extractStridedSlice S1x1 ![0, 0] R slices_S1x2_S1x1_0_0) shapeCasts_S1x1_S_)
          (shapeCast S_ (extractStridedSlice S1x1 ![0, 1] R slices_S1x2_S1x1_0_1) shapeCasts_S1x1_S_) := by
  unfold Pipeline.afterTail₀
  simp only [List.flatten_cons, List.flatten_nil, List.append_nil]
  after_results
  have hw : Pipeline.withArrays (cfgs 0).spec c (V0 m c) (fun w => (dats m 0 c).arrAt w (cfgs 0).N)
      (Proc.devRef .tc main_v11) = R :=
    (Pipeline.withArrays_arr spec0 launch0.win.arr_inj c _ _ 3).trans hR
  rw [hw]
  rfl

end Cert.KernelIdeal.Tail

end
-- ==== Proof.Final.lean ====
/-
  After the region: the quotient, and the run read as a value.

  The region leaves the [1, 2] array at the two totals, which are the specification's two sums; the host's last
  operations divide the first entry by the second. So the program's result is the specification's quotient, and its
  argument arrays end unchanged.
-/
import proofs.«156592_j90409061581302_2_alg».proof.Proof.Totals
import proofs.«156592_j90409061581302_2_alg».proof.Proof.OutArray
import proofs.«156592_j90409061581302_2_alg».proof.Proof.Tail

set_option maxRecDepth 16384

noncomputable section

namespace Cert.KernelIdeal.Final

open Cert.KernelIdeal Cert.KernelIdeal.Gen Cert.PitchLoss Cert.KernelIdeal.Blocks Cert.KernelIdeal.Tail
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The region's output array ends at the specification's two sums. -/
theorem out_entries (c : Dev nD) :
    ((dats m 0 c).arrAt 3 cfg0.N : FVec Ideal S1x2 .f32) (ix2 (0 : Fin 1) (0 : Fin 2))
        = total (hits (vecA m c) (vecE m c) (vecU m c))
    ∧ ((dats m 0 c).arrAt 3 cfg0.N : FVec Ideal S1x2 .f32) (ix2 (0 : Fin 1) (1 : Fin 2)) = total (vecA m c) := by
  have hf := OutArray.final_out m c
  have ht := Accum.out_total m c
  exact ⟨(congrFun hf _).trans (ht.1.trans (Totals.hits_total m c)),
    (congrFun hf _).trans (ht.2.trans (Totals.mask_total m c))⟩

/-- The program's result buffer after the host's last operations: the specification's quotient. -/
theorem result_eq (c : Dev nD) :
    Pipeline.afterTail₀ cfgs (dats m) 0 (V0 m) [hostOps1] c main_v16 = loss (vecA m c) (vecE m c) (vecU m c) := by
  obtain ⟨h0, h1⟩ := out_entries m c
  have hX : shapeCast S_ (extractStridedSlice S1x1 ![0, 0] ((dats m 0 c).arrAt 3 cfg0.N : FVec Ideal S1x2 .f32)
        slices_S1x2_S1x1_0_0) shapeCasts_S1x1_S_
      = fun _ => total (hits (vecA m c) (vecE m c) (vecU m c)) :=
    funext fun j => (entry_apply _ (0 : Fin 2) slices_S1x2_S1x1_0_0 shapeCasts_S1x1_S_ j).trans h0
  have hY : shapeCast S_ (extractStridedSlice S1x1 ![0, 1] ((dats m 0 c).arrAt 3 cfg0.N : FVec Ideal S1x2 .f32)
        slices_S1x2_S1x1_0_1) shapeCasts_S1x1_S_
      = fun _ => total (vecA m c) :=
    funext fun j => (entry_apply _ (1 : Fin 2) slices_S1x2_S1x1_0_1 shapeCasts_S1x1_S_ j).trans h1
  refine (tail_of m c _ rfl).trans ?_
  unfold loss
  rw [hX, hY]

/-- Every weakly fair execution of the program terminates with its result at the specification's quotient of the
    argument arrays, and the argument arrays unchanged. -/
theorem run : θ_run (defs (F := Ideal)) (onTc (τ := τ) (main (F := Ideal))) ⟨m, fun _ => 0, ρ⟩ fun r => ∀ c : Dev nD,
      r.2.mem ((c.tc : Thread nD τ).loc main_v16) = loss (vecA m c) (vecE m c) (vecU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.KernelIdeal.Final

end
-- ==== Proof.RefRun.lean ====
/-
  The reference program's run, read back.

  @main is a straight line of 24 host operations once its two calls of the outlined running-sum function are
  unfolded at their call sites (three operations each: the zero, its broadcast, the windowed sum), followed by
  @main's own eighteen: the comparison of the two running sums and its conversion (the activity mask), the column
  cuts of the two two-channel arguments, the difference, the product with the mask, its absolute value, the
  comparison with 1/2 and its conversion (the hit indicators), the two sums, and the quotient. Every weakly fair
  execution terminates with the result buffer at the operations' composed pure term of the four arguments' launch
  contents, and the four arguments unchanged.
-/
import proofs.«156592_j90409061581302_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 24 operations, in order: the running-sum function's three at each of its two calls, over that call's
    buffers, then @main's own eighteen. -/
abbrev ops : List (HloOp τ sig (Elt F)) :=
  [
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_arg2 : StableHlo.TRef sig ⟨S16777216, .i32⟩) (.of main_call0_call0_v0 : StableHlo.TRef sig ⟨S_, .i32⟩) (.of main_v0 : StableHlo.TRef sig ⟨S16777216, .i32⟩) (fun x v => Host.reduceWindow IntOp.addi ![16777216] ![1] ![16777215] ![0] x v reduceWindows_S16777216_S16777216_w16777216s1p16777215_0 h_S_),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_arg3 : StableHlo.TRef sig ⟨S16777216, .i32⟩) (.of main_call1_call0_v0 : StableHlo.TRef sig ⟨S_, .i32⟩) (.of main_v1 : StableHlo.TRef sig ⟨S16777216, .i32⟩) (fun x v => Host.reduceWindow IntOp.addi ![16777216] ![1] ![16777215] ![0] x v reduceWindows_S16777216_S16777216_w16777216s1p16777215_0 h_S_),
    StableHlo.binary main_v0 main_v1 main_v2 (cmpi .sgt : (⟨S16777216, .i32⟩ : BufTy).Contents (Elt F) → (⟨S16777216, .i32⟩ : BufTy).Contents (Elt F) → (⟨S16777216, .i1⟩ : BufTy).Contents (Elt F)),
    StableHlo.unary main_v2 main_v3 (uitofp .f32 : (⟨S16777216, .i1⟩ : BufTy).Contents (Elt F) → (⟨S16777216, .f32⟩ : BufTy).Contents (Elt F)),
    StableHlo.unary main_arg0 main_v4 ((extractStridedSlice S16777216x1 ![0, 0] · slices_S16777216x2_S16777216x1_0_0) : (⟨S16777216x2, .f32⟩ : BufTy).Contents (Elt F) → (⟨S16777216x1, .f32⟩ : BufTy).Contents (Elt F)),
    StableHlo.reshape main_v4 main_v5 rfl shapeCasts_S16777216x1_S16777216,
    StableHlo.unary main_arg1 main_v6 ((extractStridedSlice S16777216x1 ![0, 0] · slices_S16777216x2_S16777216x1_0_0) : (⟨S16777216x2, .f32⟩ : BufTy).Contents (Elt F) → (⟨S16777216x1, .f32⟩ : BufTy).Contents (Elt F)),
    StableHlo.reshape main_v6 main_v7 rfl shapeCasts_S16777216x1_S16777216,
    StableHlo.binary main_v7 main_v5 main_v8 (subf : (⟨S16777216, .f32⟩ : BufTy).Contents (Elt F) → (⟨S16777216, .f32⟩ : BufTy).Contents (Elt F) → (⟨S16777216, .f32⟩ : BufTy).Contents (Elt F)),
    StableHlo.binary main_v3 main_v8 main_v9 (mulf : (⟨S16777216, .f32⟩ : BufTy).Contents (Elt F) → (⟨S16777216, .f32⟩ : BufTy).Contents (Elt F) → (⟨S16777216, .f32⟩ : BufTy).Contents (Elt F)),
    StableHlo.unary main_v9 main_v10 (Host.absf : (⟨S16777216, .f32⟩ : BufTy).Contents (Elt F) → (⟨S16777216, .f32⟩ : BufTy).Contents (Elt F)),
    StableHlo.nullary main_cst (constant S_ .f32 0x3F000000#32),
    StableHlo.unary main_cst main_v11 (broadcastInDim S16777216 ![] bcast_S_S16777216 : (⟨S_, .f32⟩ : BufTy).Contents (Elt F) → (⟨S16777216, .f32⟩ : BufTy).Contents (Elt F)),
    StableHlo.binary main_v10 main_v11 main_v12 (cmpf .ogt : (⟨S16777216, .f32⟩ : BufTy).Contents (Elt F) → (⟨S16777216, .f32⟩ : BufTy).Contents (Elt F) → (⟨S16777216, .i1⟩ : BufTy).Contents (Elt F)),
    StableHlo.unary main_v12 main_v13 (uitofp .f32 : (⟨S16777216, .i1⟩ : BufTy).Contents (Elt F) → (⟨S16777216, .f32⟩ : BufTy).Contents (Elt F)),
    StableHlo.nullary main_cst_0 (constant S_ .f32 0x00000000#32),
    StableHlo.binary main_v13 main_cst_0 main_v14 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    StableHlo.nullary main_cst_1 (constant S_ .f32 0x00000000#32),
    StableHlo.binary main_v3 main_cst_1 main_v15 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    StableHlo.binary main_v14 main_v15 main_v16 (Host.divf : (⟨S_, .f32⟩ : BufTy).Contents (Elt F) → (⟨S_, .f32⟩ : BufTy).Contents (Elt F) → (⟨S_, .f32⟩ : BufTy).Contents (Elt F)) ]

/-- @main is that straight line: the two functions' definitions unfolded at their calls, both sides are one chain
    of steps once sequencing is reassociated. -/
theorem main_eq (c : Dev nD) : main (F := F) c = seq ops := by
  simp only [main, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    binary_bufs_sub .., unary_bufs_sub .., unary_bufs_sub .., reshape_bufs_sub .., unary_bufs_sub .., reshape_bufs_sub ..,
    binary_bufs_sub .., binary_bufs_sub .., unary_bufs_sub .., nullary_bufs_sub .., unary_bufs_sub .., binary_bufs_sub ..,
    unary_bufs_sub .., nullary_bufs_sub .., binary_bufs_sub .., nullary_bufs_sub .., binary_bufs_sub .., binary_bufs_sub ..⟩

/-- On every device, for any float values, from any memory with zero counters: every weakly fair execution of
    @main terminates with the result at the operations' composed term of the four arguments — the quotient of the
    sum of the hit indicators by the sum of the mask — and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
        = Host.divf
          (Host.reduceAdd
            (uitofp .f32 (cmpf .ogt
              (Host.absf (mulf
                (uitofp .f32 (cmpi .sgt (Host.reduceWindow IntOp.addi ![16777216] ![1] ![16777215] ![0] (m ((c.tc : Thread nD τ).loc main_arg2)) (broadcastInDim S_ ![] bcast_S_S_ (constantI S_ 32 0#32)) reduceWindows_S16777216_S16777216_w16777216s1p16777215_0 h_S_) (Host.reduceWindow IntOp.addi ![16777216] ![1] ![16777215] ![0] (m ((c.tc : Thread nD τ).loc main_arg3)) (broadcastInDim S_ ![] bcast_S_S_ (constantI S_ 32 0#32)) reduceWindows_S16777216_S16777216_w16777216s1p16777215_0 h_S_)))
                (subf (shapeCast _ (extractStridedSlice S16777216x1 ![0, 0] (m ((c.tc : Thread nD τ).loc main_arg1)) slices_S16777216x2_S16777216x1_0_0) shapeCasts_S16777216x1_S16777216)
                  (shapeCast _ (extractStridedSlice S16777216x1 ![0, 0] (m ((c.tc : Thread nD τ).loc main_arg0)) slices_S16777216x2_S16777216x1_0_0) shapeCasts_S16777216x1_S16777216))))
              (broadcastInDim S16777216 ![] bcast_S_S16777216 (constant S_ .f32 0x3F000000#32))))
            (constant S_ .f32 0x00000000#32) reducesTo_S16777216_S_d0 h_S_)
          (Host.reduceAdd
            (uitofp .f32 (cmpi .sgt (Host.reduceWindow IntOp.addi ![16777216] ![1] ![16777215] ![0] (m ((c.tc : Thread nD τ).loc main_arg2)) (broadcastInDim S_ ![] bcast_S_S_ (constantI S_ 32 0#32)) reduceWindows_S16777216_S16777216_w16777216s1p16777215_0 h_S_) (Host.reduceWindow IntOp.addi ![16777216] ![1] ![16777215] ![0] (m ((c.tc : Thread nD τ).loc main_arg3)) (broadcastInDim S_ ![] bcast_S_S_ (constantI S_ 32 0#32)) reduceWindows_S16777216_S16777216_w16777216s1p16777215_0 h_S_)))
            (constant S_ .f32 0x00000000#32) reducesTo_S16777216_S_d0 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v16).trans (by
        after_results
        -- the typed references' transports are the identity at these literal references
        simp only [TRef.toBuf, TRef.ofBuf, cast_eq]
        rfl),
      (h c main_arg0).trans (by after_results <;> rfl),
      (h c main_arg1).trans (by after_results <;> rfl),
      (h c main_arg2).trans (by after_results <;> rfl),
      (h c main_arg3).trans (by after_results <;> rfl)⟩)
    (run_seq scopedRefs_eq scopedSems_eq defs main (fun _ => ops) main_eq (fun _ => ops_sub) m ρ)

end Cert.ReferenceIdeal.RefRun

end
-- ==== Proof.RefValue.lean ====
/-
  The reference's value is the loss.

  The reference's run ends with its result buffer at the composed term of its 24 operations. Read at the extended
  reals that term is the loss of the specification: the running sums, their comparison and the column cuts are the
  specification's mask and columns verbatim; timestep by timestep the product, the absolute value, the comparison
  with 1/2 and the conversion are the hit indicator; the host's sum from the f32 zero is the sum over all the
  timesteps (the zero is the extended real 0, the scalar result has one index and every timestep reduces to it); and the
  quotient is the host's on both sides. The equation is proved over an arbitrary mask and two arbitrary columns, and
  the run is restated with it.
-/
import proofs.«156592_j90409061581302_2_alg».proof.Proof.RefRun
import proofs.«156592_j90409061581302_2_alg».proof.Proof.Spec

noncomputable section

namespace Cert.ReferenceIdeal.RefValue

open Cert.ReferenceIdeal Idealize.ShloMosaic Idealize.ShloMosaic.TcCoe Idealize.SL.Sem
open Idealize.ShloMosaic.ValueIdx Cert.PitchLoss

/-- A timestep's index is its one coordinate. -/
def idx1Equiv : Fin 16777216 ≃ ST.Idx where
  toFun := ix1
  invFun j := j 0
  left_inv _ := rfl
  right_inv j := (eq_ix1 j).symm

/-- The host's sum of a vector over the timesteps from the f32 zero is the sum of all its entries: the initial value
    is the extended real 0, the result has one index, and every timestep reduces to it. -/
theorem hostSum_eq_total (x : FVec Ideal ST .f32) (hr : ST.ReducesTo [0] S0) (h0 : 0 < S0.numel) :
    Host.reduceAdd (F := Ideal) x (constant (F := Ideal) S0 .f32 0x00000000#32) hr h0 = fun _ => total x := by
  funext j
  show Ideal.hostReduceAdd hr x (Ideal.ofBits .f32 0x00000000#32) j = total x
  rw [Ideal.hostReduceAdd_total hr (fun b => b.elim0), Ideal.ofBits_zero_f32, zero_add]
  exact (Equiv.sum_comp idx1Equiv x).symm

/-- Timestep by timestep the reference's chain — the product of the mask with the difference, its absolute value,
    the comparison with the splat of 1/2, the conversion of the bit — is the hit indicator. -/
theorem hits_eq (A E U : FVec Ideal ST .f32) (hb : S0.BroadcastsInDim ST (![] : Fin 0 → Fin ST.rank)) :
    uitofp .f32 (cmpf .ogt (Host.absf (F := Ideal) (mulf A (subf E U)))
        (broadcastInDim ST ![] hb (constant (F := Ideal) S0 .f32 0x3F000000#32)))
      = hits A E U := by
  funext i
  rfl

/-- The reference's value over any mask and any two columns: the host's quotient of the host's sum of the hit
    indicators by the host's sum of the mask is the loss. -/
theorem value_eq (A E U : FVec Ideal ST .f32) (hb : S0.BroadcastsInDim ST (![] : Fin 0 → Fin ST.rank))
    (hr : ST.ReducesTo [0] S0) (h0 : 0 < S0.numel) :
    Host.divf (F := Ideal)
        (Host.reduceAdd (F := Ideal)
          (uitofp .f32 (cmpf .ogt (Host.absf (F := Ideal) (mulf A (subf E U)))
            (broadcastInDim ST ![] hb (constant (F := Ideal) S0 .f32 0x3F000000#32))))
          (constant (F := Ideal) S0 .f32 0x00000000#32) hr h0)
        (Host.reduceAdd (F := Ideal) A (constant (F := Ideal) S0 .f32 0x00000000#32) hr h0)
      = loss A E U := by
  rw [hits_eq A E U hb, hostSum_eq_total, hostSum_eq_total]
  rfl

/-- The operations' composed term over any four argument arrays is the loss of the mask of the two integer arrays and
    the first columns of the two two-channel arrays. The mask and the two columns occur in the term as they are
    defined: they are named, the term is then the one of `value_eq`. -/
theorem out_eq_loss (u e : FVec Ideal ST2 .f32) (on off : IVec ST 32) :
    Host.divf (F := Ideal)
        (Host.reduceAdd (F := Ideal)
          (uitofp .f32 (cmpf .ogt
            (Host.absf (F := Ideal) (mulf
              (uitofp (F := Ideal) .f32 (cmpi .sgt (Host.reduceWindow IntOp.addi ![16777216] ![1] ![16777215] ![0] on (broadcastInDim S_ ![] Gen.bcast_S_S_ (constantI S_ 32 0#32)) Gen.reduceWindows_S16777216_S16777216_w16777216s1p16777215_0 Gen.h_S_) (Host.reduceWindow IntOp.addi ![16777216] ![1] ![16777215] ![0] off (broadcastInDim S_ ![] Gen.bcast_S_S_ (constantI S_ 32 0#32)) Gen.reduceWindows_S16777216_S16777216_w16777216s1p16777215_0 Gen.h_S_)))
              (subf (shapeCast _ (extractStridedSlice S16777216x1 ![0, 0] e Gen.slices_S16777216x2_S16777216x1_0_0) Gen.shapeCasts_S16777216x1_S16777216)
                (shapeCast _ (extractStridedSlice S16777216x1 ![0, 0] u Gen.slices_S16777216x2_S16777216x1_0_0) Gen.shapeCasts_S16777216x1_S16777216))))
            (broadcastInDim S16777216 ![] Gen.bcast_S_S16777216 (constant (F := Ideal) S_ .f32 0x3F000000#32))))
          (constant (F := Ideal) S_ .f32 0x00000000#32) Gen.reducesTo_S16777216_S_d0 Gen.h_S_)
        (Host.reduceAdd (F := Ideal)
          (uitofp (F := Ideal) .f32 (cmpi .sgt (Host.reduceWindow IntOp.addi ![16777216] ![1] ![16777215] ![0] on (broadcastInDim S_ ![] Gen.bcast_S_S_ (constantI S_ 32 0#32)) Gen.reduceWindows_S16777216_S16777216_w16777216s1p16777215_0 Gen.h_S_) (Host.reduceWindow IntOp.addi ![16777216] ![1] ![16777215] ![0] off (broadcastInDim S_ ![] Gen.bcast_S_S_ (constantI S_ 32 0#32)) Gen.reduceWindows_S16777216_S16777216_w16777216s1p16777215_0 Gen.h_S_)))
          (constant (F := Ideal) S_ .f32 0x00000000#32) Gen.reducesTo_S16777216_S_d0 Gen.h_S_)
      = loss
          (mask on off Gen.bcast_S_S_ Gen.reduceWindows_S16777216_S16777216_w16777216s1p16777215_0 Gen.h_S_)
          (col e Gen.slices_S16777216x2_S16777216x1_0_0 Gen.shapeCasts_S16777216x1_S16777216)
          (col u Gen.slices_S16777216x2_S16777216x1_0_0 Gen.shapeCasts_S16777216x1_S16777216) := by
  unfold mask runSum col
  generalize (uitofp (F := Ideal) .f32 (cmpi .sgt (Host.reduceWindow IntOp.addi ![16777216] ![1] ![16777215] ![0] on (broadcastInDim S_ ![] Gen.bcast_S_S_ (constantI S_ 32 0#32)) Gen.reduceWindows_S16777216_S16777216_w16777216s1p16777215_0 Gen.h_S_) (Host.reduceWindow IntOp.addi ![16777216] ![1] ![16777215] ![0] off (broadcastInDim S_ ![] Gen.bcast_S_S_ (constantI S_ 32 0#32)) Gen.reduceWindows_S16777216_S16777216_w16777216s1p16777215_0 Gen.h_S_))) = A
  generalize (shapeCast _ (extractStridedSlice S16777216x1 ![0, 0] e Gen.slices_S16777216x2_S16777216x1_0_0) Gen.shapeCasts_S16777216x1_S16777216) = E
  generalize (shapeCast _ (extractStridedSlice S16777216x1 ![0, 0] u Gen.slices_S16777216x2_S16777216x1_0_0) Gen.shapeCasts_S16777216x1_S16777216) = U
  exact value_eq A E U Gen.bcast_S_S16777216 Gen.reducesTo_S16777216_S_d0 Gen.h_S_

/-- On every device, from any memory with zero counters: every weakly fair execution of the reference terminates
    with its result the loss of the mask of its two integer arguments and the first columns of its two two-channel
    arguments, and the four arguments unchanged. -/
theorem run_loss (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16)
        = Cert.PitchLoss.loss
            (Cert.PitchLoss.mask (m ((c.tc : Thread nD τ).loc main_arg2)) (m ((c.tc : Thread nD τ).loc main_arg3)) Gen.bcast_S_S_ Gen.reduceWindows_S16777216_S16777216_w16777216s1p16777215_0 Gen.h_S_)
            (Cert.PitchLoss.col (m ((c.tc : Thread nD τ).loc main_arg1)) Gen.slices_S16777216x2_S16777216x1_0_0 Gen.shapeCasts_S16777216x1_S16777216)
            (Cert.PitchLoss.col (m ((c.tc : Thread nD τ).loc main_arg0)) Gen.slices_S16777216x2_S16777216x1_0_0 Gen.shapeCasts_S16777216x1_S16777216)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨(h c).1.trans (out_eq_loss (m ((c.tc : Thread nD τ).loc main_arg0)) (m ((c.tc : Thread nD τ).loc main_arg1)) (m ((c.tc : Thread nD τ).loc main_arg2)) (m ((c.tc : Thread nD τ).loc main_arg3))), (h c).2⟩)
    (RefRun.run (F := Ideal) m ρ)

end Cert.ReferenceIdeal.RefValue

end
-- ==== Proof.lean ====
/-
  The certificate of a masked, thresholded pitch-error count.

  Both programs compute, from u, e : f32[T, 2] and two integer arrays over T = 16777216 timesteps,

      (number of timesteps t with |A(t) · (e(t,0) − u(t,0))| > 1/2) / (sum over t of A(t)),

  where A is the activity mask: 1 where the running count of onsets exceeds that of offsets, else 0. The reference
  takes both sums in one host reduction each. The kernel lays the three vectors out as [131072, 128] arrays, visits
  32 blocks of 4096 rows in order, and at each adds the block's two counts (a row's 128 lanes first, then the 4096
  rows) to a [1, 2] accumulator that the first point clears and the last point copies out; the host divides the
  two entries. Over the extended reals addition is commutative and associative, so the kernel's grouping by block,
  row and lane is the reference's single sum, with no finiteness needed; the mask, the column cut and the final
  division are the same operations in both programs and are never opened; and the kernel's indicator, a one-bit
  comparison widened to 32 bits and read signed, is the reference's bit read unsigned.

  The three frames: the two kernel programs' are the generated frame runs; the reference's is its run with the
  result dropped. The idealization rewrote nothing, so what it must preserve is trivially true.
-/
import proofs.«156592_j90409061581302_2_alg».proof.Defs
import proofs.«156592_j90409061581302_2_alg».proof.Proof.Gen.Kernel
import proofs.«156592_j90409061581302_2_alg».proof.Proof.Gen.Kernel.Skeleton
import proofs.«156592_j90409061581302_2_alg».proof.Proof.Gen.Kernel.Launch
import proofs.«156592_j90409061581302_2_alg».proof.Proof.Gen.Kernel.Points
import proofs.«156592_j90409061581302_2_alg».proof.Proof.Gen.Kernel.Frame
import proofs.«156592_j90409061581302_2_alg».proof.Proof.Gen.KernelIdeal
import proofs.«156592_j90409061581302_2_alg».proof.Proof.Gen.KernelIdeal.Skeleton
import proofs.«156592_j90409061581302_2_alg».proof.Proof.Gen.KernelIdeal.Launch
import proofs.«156592_j90409061581302_2_alg».proof.Proof.Gen.KernelIdeal.Points
import proofs.«156592_j90409061581302_2_alg».proof.Proof.Gen.KernelIdeal.Frame
import proofs.«156592_j90409061581302_2_alg».proof.Proof.Gen.ReferenceIdeal
import proofs.«156592_j90409061581302_2_alg».proof.Proof.Gen.Pre_finite_inputs
import Idealize.ShloMosaic.Adequacy
import Idealize.ShloMosaic.Init
import proofs.«156592_j90409061581302_2_alg».proof.Proof.Final
import proofs.«156592_j90409061581302_2_alg».proof.Proof.RefValue

noncomputable section

namespace Cert.Proof

open Idealize.ShloMosaic Idealize.SL.Sem Cert.PitchLoss

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run_loss m ρ)

theorem preserves : Cert.preserves_Kernel_KernelIdeal := trivial

/-- Both programs end at the specification's quotient of argument arrays that agree. -/
theorem algebraic : Cert.algebraic_KernelIdeal_ReferenceIdeal := by
  intro m ρ m' ρ' _ hagree
  refine ⟨fun c => loss (Cert.KernelIdeal.Blocks.vecA m c) (Cert.KernelIdeal.Blocks.vecE m c) (Cert.KernelIdeal.Blocks.vecU m c),
    Cert.KernelIdeal.Final.run m ρ, ?_⟩
  refine (θ_run Cert.ReferenceIdeal.defs _ _).mono (fun _ h c => ⟨(h c).1.trans ?_, (h c).2⟩)
    (Cert.ReferenceIdeal.RefValue.run_loss m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
